-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S1024 : Shape := ⟨1, ![1024]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x512 .f32) (main_arg1 : FVec F S1024x512 .f32) (main_arg2 : FVec F S1024 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S64x512 : Shape := ⟨2, ![64, 512]⟩
abbrev S128x512 : Shape := ⟨2, ![128, 512]⟩
abbrev S128x1 : Shape := ⟨2, ![128, 1]⟩
abbrev S8x512 : Shape := ⟨2, ![8, 512]⟩
abbrev S8x16x512 : Shape := ⟨3, ![8, 16, 512]⟩
abbrev S8x512x16 : Shape := ⟨3, ![8, 512, 16]⟩
abbrev S8x512x128 : Shape := ⟨3, ![8, 512, 128]⟩
abbrev S8x512x1 : Shape := ⟨3, ![8, 512, 1]⟩
abbrev S8x1x128 : Shape := ⟨3, ![8, 1, 128]⟩
abbrev S8x128 : Shape := ⟨2, ![8, 128]⟩
abbrev S512x128 : Shape := ⟨2, ![512, 128]⟩
abbrev S1x512x128 : Shape := ⟨3, ![1, 512, 128]⟩
abbrev S512x64 : Shape := ⟨2, ![512, 64]⟩
abbrev S512x576 : Shape := ⟨2, ![512, 576]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1024, .f32⟩
  | .hbm, ⟨3, _⟩ => ⟨S1024x1, .f32⟩
  | .hbm, ⟨4, _⟩ => ⟨S64x512, .f32⟩
  | .hbm, ⟨5, _⟩ => ⟨S512x64, .f32⟩
  | .hbm, ⟨6, _⟩ => ⟨S512x576, .f32⟩
  | .local _ .vmem, ⟨0, _⟩ => ⟨S512x512, .f32⟩
  | .local _ .vmem, ⟨1, _⟩ => ⟨S128x512, .f32⟩
  | .local _ .vmem, ⟨2, _⟩ => ⟨S128x512, .f32⟩
  | .local _ .vmem, ⟨3, _⟩ => ⟨S128x1, .f32⟩
  | .local _ .vmem, ⟨4, _⟩ => ⟨S128x1, .f32⟩
  | .local _ .vmem, ⟨5, _⟩ => ⟨S8x512, .f32⟩
  | .local _ .vmem, ⟨6, _⟩ => ⟨S8x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1024x1 : S1024.ShapeCasts S1024x1
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x512 : S128x1.Broadcasts S128x512
  shapeCasts_S128x512_S8x16x512 : S128x512.ShapeCasts S8x16x512
  transposes_S8x16x512_p0_2_1_S8x512x16 : S8x16x512.Transposes [0, 2, 1] S8x512x16
  slices_S8x512x16_o0_0_0_S8x512x1 : S8x512x16.Slices ![0, 0, 0] S8x512x1
  slices_S8x16x512_o0_0_0_S8x1x128 : S8x16x512.Slices ![0, 0, 0] S8x1x128
  shapeCasts_S8x1x128_S8x128 : S8x1x128.ShapeCasts S8x128
  shapeCasts_S8x128_S8x1x128 : S8x128.ShapeCasts S8x1x128
  broadcasts_S8x512x1_S8x512x128 : S8x512x1.Broadcasts S8x512x128
  broadcasts_S8x1x128_S8x512x128 : S8x1x128.Broadcasts S8x512x128
  slices_S8x512x16_o0_0_1_S8x512x1 : S8x512x16.Slices ![0, 0, 1] S8x512x1
  slices_S8x16x512_o0_1_0_S8x1x128 : S8x16x512.Slices ![0, 1, 0] S8x1x128
  slices_S8x512x16_o0_0_2_S8x512x1 : S8x512x16.Slices ![0, 0, 2] S8x512x1
  slices_S8x16x512_o0_2_0_S8x1x128 : S8x16x512.Slices ![0, 2, 0] S8x1x128
  slices_S8x512x16_o0_0_3_S8x512x1 : S8x512x16.Slices ![0, 0, 3] S8x512x1
  slices_S8x16x512_o0_3_0_S8x1x128 : S8x16x512.Slices ![0, 3, 0] S8x1x128
  slices_S8x512x16_o0_0_4_S8x512x1 : S8x512x16.Slices ![0, 0, 4] S8x512x1
  slices_S8x16x512_o0_4_0_S8x1x128 : S8x16x512.Slices ![0, 4, 0] S8x1x128
  slices_S8x512x16_o0_0_5_S8x512x1 : S8x512x16.Slices ![0, 0, 5] S8x512x1
  slices_S8x16x512_o0_5_0_S8x1x128 : S8x16x512.Slices ![0, 5, 0] S8x1x128
  slices_S8x512x16_o0_0_6_S8x512x1 : S8x512x16.Slices ![0, 0, 6] S8x512x1
  slices_S8x16x512_o0_6_0_S8x1x128 : S8x16x512.Slices ![0, 6, 0] S8x1x128
  slices_S8x512x16_o0_0_7_S8x512x1 : S8x512x16.Slices ![0, 0, 7] S8x512x1
  slices_S8x16x512_o0_7_0_S8x1x128 : S8x16x512.Slices ![0, 7, 0] S8x1x128
  slices_S8x512x16_o0_0_8_S8x512x1 : S8x512x16.Slices ![0, 0, 8] S8x512x1
  slices_S8x16x512_o0_8_0_S8x1x128 : S8x16x512.Slices ![0, 8, 0] S8x1x128
  slices_S8x512x16_o0_0_9_S8x512x1 : S8x512x16.Slices ![0, 0, 9] S8x512x1
  slices_S8x16x512_o0_9_0_S8x1x128 : S8x16x512.Slices ![0, 9, 0] S8x1x128
  slices_S8x512x16_o0_0_10_S8x512x1 : S8x512x16.Slices ![0, 0, 10] S8x512x1
  slices_S8x16x512_o0_10_0_S8x1x128 : S8x16x512.Slices ![0, 10, 0] S8x1x128
  slices_S8x512x16_o0_0_11_S8x512x1 : S8x512x16.Slices ![0, 0, 11] S8x512x1
  slices_S8x16x512_o0_11_0_S8x1x128 : S8x16x512.Slices ![0, 11, 0] S8x1x128
  slices_S8x512x16_o0_0_12_S8x512x1 : S8x512x16.Slices ![0, 0, 12] S8x512x1
  slices_S8x16x512_o0_12_0_S8x1x128 : S8x16x512.Slices ![0, 12, 0] S8x1x128
  slices_S8x512x16_o0_0_13_S8x512x1 : S8x512x16.Slices ![0, 0, 13] S8x512x1
  slices_S8x16x512_o0_13_0_S8x1x128 : S8x16x512.Slices ![0, 13, 0] S8x1x128
  slices_S8x512x16_o0_0_14_S8x512x1 : S8x512x16.Slices ![0, 0, 14] S8x512x1
  slices_S8x16x512_o0_14_0_S8x1x128 : S8x16x512.Slices ![0, 14, 0] S8x1x128
  slices_S8x512x16_o0_0_15_S8x512x1 : S8x512x16.Slices ![0, 0, 15] S8x512x1
  slices_S8x16x512_o0_15_0_S8x1x128 : S8x16x512.Slices ![0, 15, 0] S8x1x128
  iota_S512x128_d0_w32 : S512x128.Iotas .tc 32 [0]
  iota_S512x128_d1_w32 : S512x128.Iotas .tc 32 [1]
  shapeCasts_S512x128_S1x512x128 : S512x128.ShapeCasts S1x512x128
  broadcasts_S1x512x128_S8x512x128 : S1x512x128.Broadcasts S8x512x128
  reduces_S8x512x128_S8x512 : S8x512x128.Reduces [2] S8x512
  slices_S8x16x512_o0_0_128_S8x1x128 : S8x16x512.Slices ![0, 0, 128] S8x1x128
  slices_S8x16x512_o0_1_128_S8x1x128 : S8x16x512.Slices ![0, 1, 128] S8x1x128
  slices_S8x16x512_o0_2_128_S8x1x128 : S8x16x512.Slices ![0, 2, 128] S8x1x128
  slices_S8x16x512_o0_3_128_S8x1x128 : S8x16x512.Slices ![0, 3, 128] S8x1x128
  slices_S8x16x512_o0_4_128_S8x1x128 : S8x16x512.Slices ![0, 4, 128] S8x1x128
  slices_S8x16x512_o0_5_128_S8x1x128 : S8x16x512.Slices ![0, 5, 128] S8x1x128
  slices_S8x16x512_o0_6_128_S8x1x128 : S8x16x512.Slices ![0, 6, 128] S8x1x128
  slices_S8x16x512_o0_7_128_S8x1x128 : S8x16x512.Slices ![0, 7, 128] S8x1x128
  slices_S8x16x512_o0_8_128_S8x1x128 : S8x16x512.Slices ![0, 8, 128] S8x1x128
  slices_S8x16x512_o0_9_128_S8x1x128 : S8x16x512.Slices ![0, 9, 128] S8x1x128
  slices_S8x16x512_o0_10_128_S8x1x128 : S8x16x512.Slices ![0, 10, 128] S8x1x128
  slices_S8x16x512_o0_11_128_S8x1x128 : S8x16x512.Slices ![0, 11, 128] S8x1x128
  slices_S8x16x512_o0_12_128_S8x1x128 : S8x16x512.Slices ![0, 12, 128] S8x1x128
  slices_S8x16x512_o0_13_128_S8x1x128 : S8x16x512.Slices ![0, 13, 128] S8x1x128
  slices_S8x16x512_o0_14_128_S8x1x128 : S8x16x512.Slices ![0, 14, 128] S8x1x128
  slices_S8x16x512_o0_15_128_S8x1x128 : S8x16x512.Slices ![0, 15, 128] S8x1x128
  slices_S8x16x512_o0_0_256_S8x1x128 : S8x16x512.Slices ![0, 0, 256] S8x1x128
  slices_S8x16x512_o0_1_256_S8x1x128 : S8x16x512.Slices ![0, 1, 256] S8x1x128
  slices_S8x16x512_o0_2_256_S8x1x128 : S8x16x512.Slices ![0, 2, 256] S8x1x128
  slices_S8x16x512_o0_3_256_S8x1x128 : S8x16x512.Slices ![0, 3, 256] S8x1x128
  slices_S8x16x512_o0_4_256_S8x1x128 : S8x16x512.Slices ![0, 4, 256] S8x1x128
  slices_S8x16x512_o0_5_256_S8x1x128 : S8x16x512.Slices ![0, 5, 256] S8x1x128
  slices_S8x16x512_o0_6_256_S8x1x128 : S8x16x512.Slices ![0, 6, 256] S8x1x128
  slices_S8x16x512_o0_7_256_S8x1x128 : S8x16x512.Slices ![0, 7, 256] S8x1x128
  slices_S8x16x512_o0_8_256_S8x1x128 : S8x16x512.Slices ![0, 8, 256] S8x1x128
  slices_S8x16x512_o0_9_256_S8x1x128 : S8x16x512.Slices ![0, 9, 256] S8x1x128
  slices_S8x16x512_o0_10_256_S8x1x128 : S8x16x512.Slices ![0, 10, 256] S8x1x128
  slices_S8x16x512_o0_11_256_S8x1x128 : S8x16x512.Slices ![0, 11, 256] S8x1x128
  slices_S8x16x512_o0_12_256_S8x1x128 : S8x16x512.Slices ![0, 12, 256] S8x1x128
  slices_S8x16x512_o0_13_256_S8x1x128 : S8x16x512.Slices ![0, 13, 256] S8x1x128
  slices_S8x16x512_o0_14_256_S8x1x128 : S8x16x512.Slices ![0, 14, 256] S8x1x128
  slices_S8x16x512_o0_15_256_S8x1x128 : S8x16x512.Slices ![0, 15, 256] S8x1x128
  slices_S8x16x512_o0_0_384_S8x1x128 : S8x16x512.Slices ![0, 0, 384] S8x1x128
  slices_S8x16x512_o0_1_384_S8x1x128 : S8x16x512.Slices ![0, 1, 384] S8x1x128
  slices_S8x16x512_o0_2_384_S8x1x128 : S8x16x512.Slices ![0, 2, 384] S8x1x128
  slices_S8x16x512_o0_3_384_S8x1x128 : S8x16x512.Slices ![0, 3, 384] S8x1x128
  slices_S8x16x512_o0_4_384_S8x1x128 : S8x16x512.Slices ![0, 4, 384] S8x1x128
  slices_S8x16x512_o0_5_384_S8x1x128 : S8x16x512.Slices ![0, 5, 384] S8x1x128
  slices_S8x16x512_o0_6_384_S8x1x128 : S8x16x512.Slices ![0, 6, 384] S8x1x128
  slices_S8x16x512_o0_7_384_S8x1x128 : S8x16x512.Slices ![0, 7, 384] S8x1x128
  slices_S8x16x512_o0_8_384_S8x1x128 : S8x16x512.Slices ![0, 8, 384] S8x1x128
  slices_S8x16x512_o0_9_384_S8x1x128 : S8x16x512.Slices ![0, 9, 384] S8x1x128
  slices_S8x16x512_o0_10_384_S8x1x128 : S8x16x512.Slices ![0, 10, 384] S8x1x128
  slices_S8x16x512_o0_11_384_S8x1x128 : S8x16x512.Slices ![0, 11, 384] S8x1x128
  slices_S8x16x512_o0_12_384_S8x1x128 : S8x16x512.Slices ![0, 12, 384] S8x1x128
  slices_S8x16x512_o0_13_384_S8x1x128 : S8x16x512.Slices ![0, 13, 384] S8x1x128
  slices_S8x16x512_o0_14_384_S8x1x128 : S8x16x512.Slices ![0, 14, 384] S8x1x128
  slices_S8x16x512_o0_15_384_S8x1x128 : S8x16x512.Slices ![0, 15, 384] S8x1x128
  inb_S8x512_S8x512_0_0 : ∀ a, (![0, 0] : Fin 2 → Nat) a + S8x512.size a ≤ S8x512.size a
  h_S8x512 : 0 < S8x512.numel
  transposes_S64x512_S512x64_1_0 : S64x512.Transposes [1, 0] S512x64
  concatenates_S512x512_S512x64_S512x576_d1 : Shape.Concatenates [S512x512, S512x64] S512x576 1
  dot_S128x512_S512x512_S128x512_1_1_0_0_n_n_wf : DotDims.WF S128x512 S512x512 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x512.size a
  hwx0_1 : ∀ i : grid0.Coords, EltTy.bits .f32 = 32 ∨ (Rect.block (s := S1024x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S1024x1.size a
  hwx0_2 : ∀ i : grid0.Coords, EltTy.bits .f32 = 32 ∨ (Rect.block (s := S1024x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x512.size a
  hwx0_3 : ∀ i : grid0.Coords, EltTy.bits .f32 = 32 ∨ (Rect.block (s := S64x512) S8x512.size (cc0_transform_3 i) (hinb0_3 i)).WholeWords (EltTy.packing .f32)

variable [Facts₀]

def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S512x64x16 : Shape := ⟨3, ![512, 64, 16]⟩
abbrev S512x64x16x1 : Shape := ⟨4, ![512, 64, 16, 1]⟩
abbrev S64x16x512 : Shape := ⟨3, ![64, 16, 512]⟩
abbrev S1x64x16x512 : Shape := ⟨4, ![1, 64, 16, 512]⟩
abbrev S512x64x16x512 : Shape := ⟨4, ![512, 64, 16, 512]⟩
abbrev S_ : Shape := ⟨0, ![]⟩
abbrev S512x64x512 : Shape := ⟨3, ![512, 64, 512]⟩
abbrev S512x1x512 : Shape := ⟨3, ![512, 1, 512]⟩
abbrev S512x64 : Shape := ⟨2, ![512, 64]⟩
abbrev S512x576 : Shape := ⟨2, ![512, 576]⟩

abbrev nBuf : Space → Nat
  | .hbm => 36
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1024, .f32⟩
  | .hbm, ⟨3, _⟩ => ⟨S512x1024, .f32⟩
  | .hbm, ⟨4, _⟩ => ⟨S512x1024, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S512x64x16, .f32⟩
  | .hbm, ⟨9, _⟩ => ⟨S512x64x16x1, .f32⟩
  | .hbm, ⟨10, _⟩ => ⟨S64x16x512, .f32⟩
  | .hbm, ⟨11, _⟩ => ⟨S1x64x16x512, .f32⟩
  | .hbm, ⟨12, _⟩ => ⟨S512x64x16x512, .f32⟩
  | .hbm, ⟨13, _⟩ => ⟨S512x64x16x512, .f32⟩
  | .hbm, ⟨14, _⟩ => ⟨S512x64x16x512, .f32⟩
  | .hbm, ⟨15, _⟩ => ⟨S512x64x16x512, .f32⟩
  | .hbm, ⟨16, _⟩ => ⟨S_, .f32⟩
  | .hbm, ⟨17, _⟩ => ⟨S512x64x512, .f32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S512x512, .f32⟩
  | .hbm, ⟨25, _⟩ => ⟨S512x1x512, .f32⟩
  | .hbm, ⟨26, _⟩ => ⟨S_, .f32⟩
  | .hbm, ⟨27, _⟩ => ⟨S512x1x512, .f32⟩
  | .hbm, ⟨28, _⟩ => ⟨S512x1x512, .f32⟩
  | .hbm, ⟨29, _⟩ => ⟨S512x64x512, .f32⟩
  | .hbm, ⟨30, _⟩ => ⟨S512x64x512, .f32⟩
  | .hbm, ⟨31, _⟩ => ⟨S512x64x512, .f32⟩
  | .hbm, ⟨32, _⟩ => ⟨S512x64x512, .f32⟩
  | .hbm, ⟨33, _⟩ => ⟨S_, .f32⟩
  | .hbm, ⟨34, _⟩ => ⟨S512x64, .f32⟩
  | .hbm, ⟨35, _⟩ => ⟨S512x576, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  shapeCasts_S512x1024_S512x64x16 : S512x1024.ShapeCasts S512x64x16
  bcast_S512x64x16_S512x64x16x1_0_1_2 : S512x64x16.BroadcastsInDim S512x64x16x1 (![0, 1, 2] : Fin 3 → Fin S512x64x16x1.rank)
  transposes_S512x64x16_S64x16x512_1_2_0 : S512x64x16.Transposes [1, 2, 0] S64x16x512
  bcast_S64x16x512_S1x64x16x512_1_2_3 : S64x16x512.BroadcastsInDim S1x64x16x512 (![1, 2, 3] : Fin 3 → Fin S1x64x16x512.rank)
  bcast_S512x64x16x1_S512x64x16x512_0_1_2_3 : S512x64x16x1.BroadcastsInDim S512x64x16x512 (![0, 1, 2, 3] : Fin 4 → Fin S512x64x16x512.rank)
  bcast_S1x64x16x512_S512x64x16x512_0_1_2_3 : S1x64x16x512.BroadcastsInDim S512x64x16x512 (![0, 1, 2, 3] : Fin 4 → Fin S512x64x16x512.rank)
  reducesTo_S512x64x16x512_S512x64x512_d2 : S512x64x16x512.ReducesTo [2] S512x64x512
  h_S_ : 0 < S_.numel
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S_S512x1x512 : S_.BroadcastsInDim S512x1x512 (![] : Fin 0 → Fin S512x1x512.rank)
  bcast_S512x1x512_S512x64x512_0_1_2 : S512x1x512.BroadcastsInDim S512x64x512 (![0, 1, 2] : Fin 3 → Fin S512x64x512.rank)
  reducesTo_S512x64x512_S512x64_d2 : S512x64x512.ReducesTo [2] S512x64
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.Spec.lean ====
/-
  The layer's result as one function of its three arguments, on the extended reals.

  A batch of 512 samples x (512 features each) is projected by W (1024 rows) and shifted by b: sample n gets the
  1024 numbers  feat n q = (∑ c, x(n, c) · W(q, c)) + b(q),  read as 64 groups of 16 consecutive columns. Within one
  group, with g n d the d-th number of sample n, the samples i and j are  dist i j = ∑ d, |g i d - g j d|  apart
  (|u - v| written  max (u - v) (-(u - v))), the pair weighs  exp (-(dist i j + e))  where e is the literal 10⁶ when
  i = j and 0 otherwise, and sample i totals  ∑ j, weight i j.  The result's entry (i, k) is sample i's total in group k.
  Nothing here mentions a program.
-/
import Idealize.ShloMosaic.PureOps.Ideal
import Idealize.ShloMosaic.Lib.ValueIdx

noncomputable section

namespace Cert.Pairwise

open Idealize.ShloMosaic Idealize.ShloMosaic.ValueIdx
open scoped BigOperators

/-- |u - v| on the extended reals, as both programs compute it: the larger of the difference and its negation. -/
def gap (u v : EReal) : EReal := max (u - v) (-(u - v))

/-- The L1 distance of samples i and j over one group's 16 numbers. -/
def dist (g : Fin 512 → Fin 16 → EReal) (i j : Fin 512) : EReal := ∑ d : Fin 16, gap (g i d) (g j d)

/-- The penalty on the diagonal: the f32 literal 10⁶. -/
def big : EReal := Ideal.ofBits .f32 0x49742400#32

/-- The weight of the pair (i, j): exp of minus (the distance plus the diagonal's penalty). -/
def weight (g : Fin 512 → Fin 16 → EReal) (i j : Fin 512) : EReal :=
  Ideal.exp (-(dist g i j + if i = j then big else 0))

/-- Sample i's total over all samples j. -/
def total (g : Fin 512 → Fin 16 → EReal) (i : Fin 512) : EReal := ∑ j : Fin 512, weight g i j

/-- Column d of group k among the 1024 projected columns. -/
def col (k : Fin 64) (d : Fin 16) : Fin 1024 := ⟨k.val * 16 + d.val, by have := k.isLt; have := d.isLt; omega⟩

/-- Row d of group k' among the 128 rows of one block of eight groups. -/
def lane (k' : Fin 8) (d : Fin 16) : Fin 128 := ⟨k'.val * 16 + d.val, by have := k'.isLt; have := d.isLt; omega⟩

/-- The projection: sample n's number in column q. -/
def feat (x : (⟨2, ![512, 512]⟩ : Shape).Idx → EReal) (W : (⟨2, ![1024, 512]⟩ : Shape).Idx → EReal)
    (b : (⟨1, ![1024]⟩ : Shape).Idx → EReal) (n : Fin 512) (q : Fin 1024) : EReal :=
  (∑ c : Fin 512, x (ix2 n c) * W (ix2 q c)) + b (ix1 q)

/-- The [512, 64] array of totals: entry (i, k) is sample i's total in group k. -/
def ob (x : (⟨2, ![512, 512]⟩ : Shape).Idx → EReal) (W : (⟨2, ![1024, 512]⟩ : Shape).Idx → EReal)
    (b : (⟨1, ![1024]⟩ : Shape).Idx → EReal) : (⟨2, ![512, 64]⟩ : Shape).Idx → EReal :=
  fun p => total (fun n d => feat x W b n (col ⟨(p 1).val, (p 1).isLt⟩ d)) ⟨(p 0).val, (p 0).isLt⟩

theorem ob_apply (x : (⟨2, ![512, 512]⟩ : Shape).Idx → EReal) (W : (⟨2, ![1024, 512]⟩ : Shape).Idx → EReal)
    (b : (⟨1, ![1024]⟩ : Shape).Idx → EReal) (i : Fin 512) (k : Fin 64) :
    ob x W b (ix2 i k) = total (fun n d => feat x W b n (col k d)) i := rfl

end Cert.Pairwise

end
-- ==== Proof.BodyShape.lean ====
/-
  The body of the kernel at one grid point, arranged by what it computes.

  From the block's projected numbers v7 : [8, 16, 512] (group, column in the group, sample) and the same numbers with the
  last two axes exchanged, v8 : [8, 512, 16], the body goes through the 512 samples j in four runs of 128. For one run
  starting at j0 it adds up, column by column, the 16 arrays |v8(k, i, d) - v7(k, d, j0 + l)| over (k, i, l) : [8, 512, 128]
  (`norm`), adds the diagonal's penalty (`eraser`: 10⁶ where i = j0 + l), takes exp of the negation and sums over the
  128 lanes (`blockSum`); the four runs' sums are added to a zero array (`whole`). The printed body is this
  arrangement, term for term (`out_eq`).
-/
import proofs.«133130_j64802466562626_2_alg».proof.Proof.Gen.KernelIdeal.Frame

noncomputable section

namespace Cert.KernelIdeal.Body

open Idealize.ShloMosaic Cert.KernelIdeal Cert.KernelIdeal.Gen

variable {F : FTy → Type} [FloatOps F]

/-- Column d of every sample is a [8, 512, 1] slice of v8. -/
theorem slice_i (d : Nat) (hd : d < 16) : S8x512x16.Slices ![0, 0, d] S8x512x1 :=
  ⟨rfl, fun a => match a with
    | ⟨0, _⟩ => by show 0 + 8 ≤ 8; omega
    | ⟨1, _⟩ => by show 0 + 512 ≤ 512; omega
    | ⟨2, _⟩ => by show d + 1 ≤ 16; omega⟩

/-- Column d of the samples j0 … j0 + 127 is a [8, 1, 128] slice of v7. -/
theorem slice_j (d j0 : Nat) (hd : d < 16) (hj : j0 + 128 ≤ 512) : S8x16x512.Slices ![0, d, j0] S8x1x128 :=
  ⟨rfl, fun a => match a with
    | ⟨0, _⟩ => by show 0 + 8 ≤ 8; omega
    | ⟨1, _⟩ => by show d + 1 ≤ 16; omega
    | ⟨2, _⟩ => by show j0 + 128 ≤ 512; omega⟩

/-- The array |v8(k, i, d) - v7(k, d, j0 + l)| over (k, i, l): sample i's column d spread along the lanes, the run's
    samples' column d spread along the rows. -/
def term (v7 : FVec F S8x16x512 .f32) (v8 : FVec F S8x512x16 .f32) (d j0 : Nat)
    (h1 : S8x512x16.Slices ![0, 0, d] S8x512x1) (h2 : S8x16x512.Slices ![0, d, j0] S8x1x128) : FVec F S8x512x128 .f32 :=
  absf (subf (broadcastTo S8x512x128 (extractStridedSlice S8x512x1 ![0, 0, d] v8 h1) broadcasts_S8x512x1_S8x512x128)
    (broadcastTo S8x512x128 (shapeCast S8x1x128 (shapeCast S8x128 (extractStridedSlice S8x1x128 ![0, d, j0] v7 h2)
      shapeCasts_S8x1x128_S8x128) shapeCasts_S8x128_S8x1x128) broadcasts_S8x1x128_S8x512x128))

/-- The first n columns' terms added, in order, to a zero array. -/
def norm (v7 : FVec F S8x16x512 .f32) (v8 : FVec F S8x512x16 .f32) (j0 : Nat) (hj : j0 + 128 ≤ 512) :
    (n : Nat) → n ≤ 16 → FVec F S8x512x128 .f32
  | 0, _ => broadcast S8x512x128 (Scalar.ofBits .f32 0x00000000#32)
  | n + 1, h => addf (norm v7 v8 j0 hj n (Nat.le_of_succ_le h))
      (term v7 v8 n j0 (slice_i n (Nat.lt_of_succ_le h)) (slice_j n j0 (Nat.lt_of_succ_le h) hj))

/-- The diagonal's penalty for the run starting at j0: 10⁶ where the row number equals j0 plus the lane number. -/
def eraser (j0 : Nat) : FVec F S8x512x128 .f32 :=
  broadcastTo S8x512x128 (shapeCast S1x512x128
    (select (cmpi .eq (iota .tc S512x128 32 [0] iota_S512x128_d0_w32)
        (addi (broadcast S512x128 (BitVec.ofNat 32 j0)) (iota .tc S512x128 32 [1] iota_S512x128_d1_w32)))
      (broadcast S512x128 (Scalar.ofBits (F := F) .f32 0x49742400#32))
      (broadcast S512x128 (Scalar.ofBits (F := F) .f32 0x00000000#32)))
    shapeCasts_S512x128_S1x512x128) broadcasts_S1x512x128_S8x512x128

/-- One run's contribution: the lane sums of exp (0 - (distances + penalty)). -/
def blockSum (nrm : FVec F S8x512x128 .f32) (j0 : Nat) : FVec F S8x512 .f32 :=
  multiReduction .add [2] S8x512
    (exp (subf (broadcast S8x512x128 (Scalar.ofBits .f32 0x00000000#32)) (addf nrm (eraser j0))))
    0x00000000#32 reduces_S8x512x128_S8x512 (.inl rfl) rfl

/-- The four runs' contributions added, in order, to a zero array. -/
def whole (v7 : FVec F S8x16x512 .f32) (v8 : FVec F S8x512x16 .f32) : FVec F S8x512 .f32 :=
  addf (addf (addf (addf (broadcast S8x512 (Scalar.ofBits .f32 0x00000000#32))
    (blockSum (norm v7 v8 0 (by omega) 16 (Nat.le_refl _)) 0))
    (blockSum (norm v7 v8 128 (by omega) 16 (Nat.le_refl _)) 128))
    (blockSum (norm v7 v8 256 (by omega) 16 (Nat.le_refl _)) 256))
    (blockSum (norm v7 v8 384 (by omega) 16 (Nat.le_refl _)) 384)

set_option maxRecDepth 65536 in
/-- What the body leaves in the output block is `whole` of the projected numbers. -/
theorem out_eq (x0 : Vec F S512x512 .f32) (x1 : Vec F S128x512 .f32) (x2 : Vec F S128x1 .f32) :
    out0_3 x0 x1 x2 = View.canon [⟨r0_3, whole (k0_pay2 (View.ld x1 r0_0) (View.ld x0 r0_1) (View.ld x2 r0_2))
      (k0_pay3 (View.ld x1 r0_0) (View.ld x0 r0_1) (View.ld x2 r0_2))⟩] := rfl

end Cert.KernelIdeal.Body

end
-- ==== Proof.LibGroupedLanes.lean ====
/-
  A matrix whose columns come in equal groups: an [a, n] array with n = b · c read as [a, b, c] — row p, group g,
  lane l sits at column g · c + l — and the operations a per-group statistic is built from, each read at an index
  given by coordinates:
  • the cast [a, n] → [a, b, c] and the cast back (`split_apply`, `merge_apply`);
  • the sum over the lanes of each group at the extended reals (`lanesum_apply`);
  • a per-group value [a, b] kept with a unit lane axis, [a, b, 1] (`keep_apply`), and spread back over the lanes,
    [a, b, 1] → [a, b, c] (`spread_apply`).
  Everything is stated for arbitrary extents.
-/
import Idealize.ShloMosaic.Lib.Pipeline.Value
import Idealize.ShloMosaic.Lib.ValueIdx
import Idealize.ShloMosaic.PureOps.Ideal.Laws

namespace Cert.Lib.GroupedLanes

open Idealize.ShloMosaic Idealize.ShloMosaic.ValueIdx

variable {α : Type} {a b c n : ℕ}

/-- An [a, n] array cast to [a, b, c] reads, at (p, g, l), the operand at (p, q) where q = g · c + l. -/
theorem split_apply (x : (⟨2, ![a, n]⟩ : Shape).Idx → α) (h : (⟨2, ![a, n]⟩ : Shape).ShapeCasts ⟨3, ![a, b, c]⟩)
    (hn : n = b * c) (p : Fin a) (g : Fin b) (l : Fin c) (q : Fin n) (hq : q.val = g.val * c + l.val) :
    shapeCast ⟨3, ![a, b, c]⟩ x h (ix3 p g l) = x (ix2 p q) :=
  shapeCast_apply x h _ _ (by
    rw [Shape.rowMajor_val_two, Shape.rowMajor_val_three]
    show p.val * n + q.val = (p.val * b + g.val) * c + l.val
    rw [hq, hn]; ring)

/-- An [a, b, c] array cast to [a, n] reads, at (p, q) with q = g · c + l, the operand at (p, g, l). -/
theorem merge_apply (x : (⟨3, ![a, b, c]⟩ : Shape).Idx → α) (h : (⟨3, ![a, b, c]⟩ : Shape).ShapeCasts ⟨2, ![a, n]⟩)
    (hn : n = b * c) (p : Fin a) (q : Fin n) (g : Fin b) (l : Fin c) (hq : q.val = g.val * c + l.val) :
    shapeCast ⟨2, ![a, n]⟩ x h (ix2 p q) = x (ix3 p g l) :=
  shapeCast_apply x h _ _ (by
    rw [Shape.rowMajor_val_two, Shape.rowMajor_val_three]
    show (p.val * b + g.val) * c + l.val = p.val * n + q.val
    rw [hq, hn]; ring)

/-- An [a, b] array cast to [a, b, 1] reads, at (p, g, u), the operand at (p, g), whatever the unit coordinate. -/
theorem keep_apply (x : (⟨2, ![a, b]⟩ : Shape).Idx → α) (h : (⟨2, ![a, b]⟩ : Shape).ShapeCasts ⟨3, ![a, b, 1]⟩)
    (p : Fin a) (g : Fin b) (u : Fin 1) : shapeCast ⟨3, ![a, b, 1]⟩ x h (ix3 p g u) = x (ix2 p g) :=
  shapeCast_apply x h _ _ (by
    have hu : u.val = 0 := by omega
    rw [Shape.rowMajor_val_two, Shape.rowMajor_val_three]
    show p.val * b + g.val = (p.val * b + g.val) * 1 + u.val
    rw [hu, Nat.mul_one, Nat.add_zero])

/-- An [a, b, 1] array broadcast to [a, b, c] reads, at (p, g, l), the operand at (p, g, 0). -/
theorem spread_apply (x : (⟨3, ![a, b, 1]⟩ : Shape).Idx → α) (h : (⟨3, ![a, b, 1]⟩ : Shape).Broadcasts ⟨3, ![a, b, c]⟩)
    (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- The sum over the lanes: a `vector.multi_reduction <add>` over the last axis of an [a, b, c] array of extended
    reals reads, at (p, g), the sum over l of the operand at (p, g, l). (The accumulator's side condition is typed as a
    printed program's own proof of it is: the zero word equals itself.) -/
theorem lanesum_apply (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (g : Fin b) :
    multiReduction .add [2] ⟨2, ![a, b]⟩ src 0x00000000#32 h hφ hacc (ix2 p g) = ∑ l : Fin c, src (ix3 p g l) := by
  refine (Ideal.multiReduction_add_single src 0x00000000#32 h hφ hacc (ix2 p g)).trans ?_
  refine Finset.sum_congr rfl fun l _ => congrArg src ?_
  funext ax
  match ax with
  | ⟨0, _⟩ => rfl
  | ⟨1, _⟩ => rfl
  | ⟨2, _⟩ => rfl

end Cert.Lib.GroupedLanes
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.BodyRead.lean ====
/-
  The arrangement of the body (`whole`) read at an entry, on the extended reals.

  Entry (k, i) of `whole v7 v8` is the sum over all 512 samples j of
    exp (-((∑ d, |v8(k, i, d) - v7(k, d, j)|) + (10⁶ if i = j, else 0))):
  each of the 16 terms read at (k, i, l) is |v8(k, i, d) - v7(k, d, j0 + l)| (the slices, casts and broadcasts only move
  indices), the penalty is 10⁶ exactly where the row number is j0 + l (the two 32-bit words are equal exactly when the
  numbers are), the lane sum is a finite sum, 0 - a = -a, and the four runs of 128 samples tile the 512.
-/
import proofs.«133130_j64802466562626_2_alg».proof.Proof.BodyShape
import proofs.«133130_j64802466562626_2_alg».proof.Proof.LibGroupedLanes
import proofs.«133130_j64802466562626_2_alg».proof.Proof.LibTiles
import proofs.«133130_j64802466562626_2_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

namespace Cert.KernelIdeal.Body

open Idealize.ShloMosaic Idealize.ShloMosaic.ValueIdx Cert.KernelIdeal Cert.KernelIdeal.Gen
open scoped BigOperators

/-- One term at (k, i, l): the gap between sample i's and sample (j0 + l)'s column d. -/
theorem term_apply (v7 : FVec Ideal S8x16x512 .f32) (v8 : FVec Ideal S8x512x16 .f32) (d j0 : Nat) (hd : d < 16)
    (hj : j0 + 128 ≤ 512) (h1 : S8x512x16.Slices ![0, 0, d] S8x512x1) (h2 : S8x16x512.Slices ![0, d, j0] S8x1x128)
    (k : Fin 8) (i : Fin 512) (l : Fin 128) :
    term v7 v8 d j0 h1 h2 (ix3 k i l)
      = FloatOps.absf (v8 (ix3 k i (⟨d, hd⟩ : Fin 16))
          - v7 (ix3 k (⟨d, hd⟩ : Fin 16) (⟨j0 + l.val, by have := l.isLt; omega⟩ : Fin 512))) := by
  have ea : broadcastTo S8x512x128 (extractStridedSlice S8x512x1 ![0, 0, d] v8 h1) broadcasts_S8x512x1_S8x512x128 (ix3 k i l)
      = v8 (ix3 k i (⟨d, hd⟩ : Fin 16)) := by
    refine (broadcastTo_apply _ _ (ix3 k i l) (ix3 k i (0 : Fin 1)) fun a => ?_).trans
      (extractStridedSlice_apply _ v8 h1 _ _ fun a => ?_)
    · match a with
      | ⟨0, _⟩ => show k.val = if (8 : Nat) = 1 then 0 else k.val; rw [if_neg (by decide)]
      | ⟨1, _⟩ => show i.val = if (512 : Nat) = 1 then 0 else i.val; rw [if_neg (by decide)]
      | ⟨2, _⟩ => show (0 : Nat) = if (1 : Nat) = 1 then 0 else l.val; rw [if_pos rfl]
    · match a with
      | ⟨0, _⟩ => show k.val = 0 + k.val; omega
      | ⟨1, _⟩ => show i.val = 0 + i.val; omega
      | ⟨2, _⟩ => show d = d + 0; omega
  have eb : broadcastTo S8x512x128 (shapeCast S8x1x128 (shapeCast S8x128 (extractStridedSlice S8x1x128 ![0, d, j0] v7 h2)
        shapeCasts_S8x1x128_S8x128) shapeCasts_S8x128_S8x1x128) broadcasts_S8x1x128_S8x512x128 (ix3 k i l)
      = v7 (ix3 k (⟨d, hd⟩ : Fin 16) (⟨j0 + l.val, by have := l.isLt; omega⟩ : Fin 512)) := by
    rw [shapeCast_shapeCast]
    refine (broadcastTo_apply _ _ (ix3 k i l) (ix3 k (0 : Fin 1) l) fun a => ?_).trans
      (extractStridedSlice_apply _ v7 h2 _ _ fun a => ?_)
    · match a with
      | ⟨0, _⟩ => show k.val = if (8 : Nat) = 1 then 0 else k.val; rw [if_neg (by decide)]
      | ⟨1, _⟩ => show (0 : Nat) = if (1 : Nat) = 1 then 0 else i.val; rw [if_pos rfl]
      | ⟨2, _⟩ => show l.val = if (128 : Nat) = 1 then 0 else l.val; rw [if_neg (by decide)]
    · match a with
      | ⟨0, _⟩ => show k.val = 0 + k.val; omega
      | ⟨1, _⟩ => show d = d + 0; omega
      | ⟨2, _⟩ => show j0 + l.val = j0 + l.val; rfl
  unfold term
  show FloatOps.absf (FloatOps.subf
    (broadcastTo S8x512x128 (extractStridedSlice S8x512x1 ![0, 0, d] v8 h1) broadcasts_S8x512x1_S8x512x128 (ix3 k i l))
    (broadcastTo S8x512x128 (shapeCast S8x1x128 (shapeCast S8x128 (extractStridedSlice S8x1x128 ![0, d, j0] v7 h2)
        shapeCasts_S8x1x128_S8x128) shapeCasts_S8x128_S8x1x128) broadcasts_S8x1x128_S8x512x128 (ix3 k i l))) = _
  rw [ea, eb]
  rfl

/-- The first n terms added to zero, at (k, i, l): the sum of the first n gaps. -/
theorem norm_apply (v7 : FVec Ideal S8x16x512 .f32) (v8 : FVec Ideal S8x512x16 .f32) (j0 : Nat) (hj : j0 + 128 ≤ 512)
    (k : Fin 8) (i : Fin 512) (l : Fin 128) : ∀ (n : Nat) (h : n ≤ 16),
    norm v7 v8 j0 hj n h (ix3 k i l)
      = ∑ d : Fin n, FloatOps.absf (v8 (ix3 k i (Fin.castLE h d))
          - v7 (ix3 k (Fin.castLE h d) (⟨j0 + l.val, by have := l.isLt; omega⟩ : Fin 512)))
  | 0, _ => by
      rw [Finset.univ_eq_empty, Finset.sum_empty]
      exact Ideal.ofBits_zero_f32
  | n + 1, h => by
      rw [Fin.sum_univ_castSucc]
      show norm v7 v8 j0 hj n (Nat.le_of_succ_le h) (ix3 k i l)
        + term v7 v8 n j0 (slice_i n (Nat.lt_of_succ_le h)) (slice_j n j0 (Nat.lt_of_succ_le h) hj) (ix3 k i l) = _
      rw [norm_apply v7 v8 j0 hj k i l n (Nat.le_of_succ_le h), term_apply v7 v8 n j0 (Nat.lt_of_succ_le h) hj]
      rfl

/-- Two numbers below 2³² are equal exactly when their 32-bit words are. -/
theorem word_eq_iff (a b : Nat) (ha : a < 2 ^ 32) (hb : b < 2 ^ 32) : BitVec.ofNat 32 a = BitVec.ofNat 32 b ↔ a = b := by
  constructor
  · intro e
    have e2 := congrArg BitVec.toNat e
    simp only [BitVec.toNat_ofNat] at e2
    omega
  · intro e; rw [e]

/-- The penalty at (k, i, l): 10⁶ exactly where i = j0 + l. -/
theorem eraser_apply (j0 : Nat) (hj : j0 + 128 ≤ 512) (k : Fin 8) (i : Fin 512) (l : Fin 128) :
    eraser (F := Ideal) j0 (ix3 k i l) = if i.val = j0 + l.val then Cert.Pairwise.big else 0 := by
  unfold eraser
  refine (broadcastTo_apply _ _ (ix3 k i l) (ix3 (0 : Fin 1) i l) fun a => ?_).trans ?_
  · match a with
    | ⟨0, _⟩ => show (0 : Nat) = if (1 : Nat) = 1 then 0 else k.val; rw [if_pos rfl]
    | ⟨1, _⟩ => show i.val = if (512 : Nat) = 1 then 0 else i.val; rw [if_neg (by decide)]
    | ⟨2, _⟩ => show l.val = if (128 : Nat) = 1 then 0 else l.val; rw [if_neg (by decide)]
  refine (shapeCast_ab_1ab_apply _ _ (0 : Fin 1) i l).trans ?_
  show Scalar.select (IntOp.cmpi .eq (iota .tc S512x128 32 [0] iota_S512x128_d0_w32 (ix2 i l))
      (IntOp.addi (BitVec.ofNat 32 j0) (iota .tc S512x128 32 [1] iota_S512x128_d1_w32 (ix2 i l))))
    (FloatOps.ofBits (F := Ideal) .f32 0x49742400#32) (FloatOps.ofBits (F := Ideal) .f32 0x00000000#32) = _
  rw [iota_single_apply, iota_single_apply]
  show Scalar.select (IntOp.cmpi .eq (BitVec.ofNat 32 i.val) (IntOp.addi (BitVec.ofNat 32 j0) (BitVec.ofNat 32 l.val)))
    (Ideal.ofBits .f32 0x49742400#32) (Ideal.ofBits .f32 0x00000000#32) = _
  have hadd : IntOp.addi (BitVec.ofNat 32 j0) (BitVec.ofNat 32 l.val) = BitVec.ofNat 32 (j0 + l.val) := by
    unfold IntOp.addi; exact (BitVec.ofNat_add _ _).symm
  have hi := i.isLt
  have hl := l.isLt
  rw [hadd, Ideal.ofBits_zero_f32]
  unfold Scalar.select
  by_cases h : i.val = j0 + l.val
  · have hc : IntOp.cmpi .eq (BitVec.ofNat 32 i.val) (BitVec.ofNat 32 (j0 + l.val)) = 1 :=
      IntOp.cmpi_eq.mpr (congrArg (BitVec.ofNat 32) h)
    rw [if_pos h]
    exact (if_pos hc).trans rfl
  · have hc : ¬ IntOp.cmpi .eq (BitVec.ofNat 32 i.val) (BitVec.ofNat 32 (j0 + l.val)) = 1 :=
      fun e => h ((word_eq_iff _ _ (by omega) (by omega)).mp (IntOp.cmpi_eq.mp e))
    rw [if_neg h]
    exact if_neg hc

/-- One run's contribution at (k, i): the sum over its 128 samples of exp (-(distance + penalty)). -/
theorem blockSum_apply (nrm : FVec Ideal S8x512x128 .f32) (j0 : Nat) (hj : j0 + 128 ≤ 512) (k : Fin 8) (i : Fin 512) :
    blockSum nrm j0 (ix2 k i)
      = ∑ l : Fin 128, Ideal.exp (-(nrm (ix3 k i l) + if i.val = j0 + l.val then Cert.Pairwise.big else 0)) := by
  unfold blockSum
  refine (Cert.Lib.GroupedLanes.lanesum_apply _ _ _ _ k i).trans (Finset.sum_congr rfl fun l _ => ?_)
  show Ideal.exp (Ideal.ofBits .f32 0x00000000#32 - (nrm (ix3 k i l) + eraser (F := Ideal) j0 (ix3 k i l))) = _
  rw [eraser_apply j0 hj, Ideal.ofBits_zero_f32, zero_sub]

/-- Entry (k, i) of the whole arrangement: the sum over all 512 samples j of exp (-(distance + penalty)); the four
    runs of 128 samples tile the 512. -/
theorem whole_apply (v7 : FVec Ideal S8x16x512 .f32) (v8 : FVec Ideal S8x512x16 .f32) (k : Fin 8) (i : Fin 512) :
    whole v7 v8 (ix2 k i)
      = ∑ j : Fin 512, Ideal.exp (-((∑ d : Fin 16, FloatOps.absf (v8 (ix3 k i d) - v7 (ix3 k d j)))
          + if i.val = j.val then Cert.Pairwise.big else 0)) := by
  refine Eq.trans ?_ (Cert.Lib.Tiles.sum_tiles 4 128 (fun j : Fin 512 =>
    Ideal.exp (-((∑ d : Fin 16, FloatOps.absf (v8 (ix3 k i d) - v7 (ix3 k d j)))
      + if i.val = j.val then Cert.Pairwise.big else 0)))).symm
  rw [Fin.sum_univ_four]
  unfold whole
  show (((Ideal.ofBits .f32 0x00000000#32 + blockSum _ 0 (ix2 k i)) + blockSum _ 128 (ix2 k i))
    + blockSum _ 256 (ix2 k i)) + blockSum _ 384 (ix2 k i) = _
  rw [Ideal.ofBits_zero_f32, zero_add, blockSum_apply _ 0 (by omega), blockSum_apply _ 128 (by omega),
    blockSum_apply _ 256 (by omega), blockSum_apply _ 384 (by omega)]
  simp only [norm_apply]
  rfl

end Cert.KernelIdeal.Body

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.BodyFeat.lean ====
/-
  The kernel's projection, read at an entry.

  At one grid point the body holds 128 rows of the weights (eight groups of sixteen: row 16k + d is number d of the
  block's group k), all 512 samples, and the matching 128 entries of the bias as a column. It multiplies the weight rows
  by the transposed samples into a zero accumulator — entry (r, n) is the sum over the 512 features c of W(r, c) · x(n, c)
  —, adds the bias column repeated along the samples, and regroups the 128 rows as [8, 16]: the row-major position
  ((k·16 + d)·512 + n) is the same on both sides. A second copy swaps the last two axes. On the extended reals the
  contraction is the plain sum of products (0 + a = a for the accumulator), whatever the values.
-/
import proofs.«133130_j64802466562626_2_alg».proof.Proof.Gen.KernelIdeal.Skeleton
import proofs.«133130_j64802466562626_2_alg».proof.Proof.Spec
import proofs.«133130_j64802466562626_2_alg».proof.Proof.LibRowsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen
open scoped BigOperators

/-- The product of the weight rows with the transposed samples into the zero accumulator, at (p, q): the sum over the
    features of W(p, c) · x(q, c). The contraction's precision plays no part on the extended reals. -/
theorem proj_apply (A : FVec Ideal S128x512 .f32) (B : FVec Ideal S512x512 .f32) (p : Fin 128) (q : Fin 512) :
    matmul (F := Ideal) dot_S128x512_S512x512_S128x512_1_1_0_0_n_n (some .fp32) A B
        (constant (F := Ideal) S128x512 .f32 0x00000000#32) (ix2 p q)
      = ∑ c : Fin 512, A (ix2 p c) * B (ix2 q c) :=
  (show matmul (F := Ideal) dot_S128x512_S512x512_S128x512_1_1_0_0_n_n (some .fp32) A B
        (constant (F := Ideal) S128x512 .f32 0x00000000#32) (ix2 p q)
      = matmul (F := Ideal) (DotDims.transposedRhs 128 512 512) none A B
        (constant (F := Ideal) ⟨2, ![128, 512]⟩ .f32 0x00000000#32) (ix2 p q)
    from rfl).trans (Cert.Lib.RowsDot.matmul_zero_apply A B p q)

/-- The bias column [128, 1] repeated along the 512 samples: entry (r, n) is the column's entry (r, 0). -/
theorem bias_apply (u : FVec Ideal S128x1 .f32) (r : Fin 128) (n : Fin 512) :
    broadcastTo S128x512 (shapeCast S128x1 u shapeCasts_S128x1_S128x1) broadcasts_S128x1_S128x512 (ix2 r n)
      = u (ix2 r (0 : Fin 1)) := by
  rw [shapeCast_self]
  exact broadcastTo_apply u broadcasts_S128x1_S128x512 (ix2 r n) (ix2 r (0 : Fin 1)) (fun a => match a with
    | ⟨0, _⟩ => by show r.val = if (128 : Nat) = 1 then 0 else r.val; rw [if_neg (by decide)]
    | ⟨1, _⟩ => by show (0 : Nat) = if (1 : Nat) = 1 then 0 else n.val; rw [if_pos rfl])

/-- The projection regrouped as [8, 16, 512]: entry (k, d, n) is sample n's number d in the block's group k, the sum
    over the features of W(16k + d, c) · x(n, c) plus the bias of row 16k + d. -/
theorem pay2_apply (v0 : Vec Ideal S128x512 .f32) (v1 : Vec Ideal S512x512 .f32) (v3 : Vec Ideal S128x1 .f32)
    (k : Fin 8) (d : Fin 16) (n : Fin 512) :
    k0_pay2 (F := Ideal) v0 v1 v3 (ix3 k d n)
      = (∑ c : Fin 512, v0 (ix2 (Cert.Pairwise.lane k d) c) * v1 (ix2 n c))
        + v3 (ix2 (Cert.Pairwise.lane k d) (0 : Fin 1)) := by
  unfold k0_pay2
  refine (shapeCast_apply _ shapeCasts_S128x512_S8x16x512 (ix3 k d n) (ix2 (Cert.Pairwise.lane k d) n) ?_).trans ?_
  · rw [Shape.rowMajor_val_two, Shape.rowMajor_val_three]
    rfl
  · exact congrArg₂ (· + ·) (proj_apply v0 v1 (Cert.Pairwise.lane k d) n) (bias_apply v3 (Cert.Pairwise.lane k d) n)

/-- The copy with the last two axes swapped, [8, 512, 16]: entry (k, n, d) is entry (k, d, n) of the other. -/
theorem pay3_apply (v0 : Vec Ideal S128x512 .f32) (v1 : Vec Ideal S512x512 .f32) (v3 : Vec Ideal S128x1 .f32)
    (k : Fin 8) (n : Fin 512) (d : Fin 16) :
    k0_pay3 (F := Ideal) v0 v1 v3 (ix3 k n d) = k0_pay2 (F := Ideal) v0 v1 v3 (ix3 k d n) := by
  unfold k0_pay3
  exact transpose_ix3_021_apply _ transposes_S8x16x512_p0_2_1_S8x512x16 k n d

end Cert.KernelIdeal.Body

end
-- ==== Proof.Body.lean ====
/-
  The kernel's body at one grid point, read at an entry of its output block.

  The block's projected numbers are g n d = (∑ c, x(n, c) · W(16k' + d, c)) + b(16k' + d) for the block's group k'
  (the matrix product's factors exchanged by commutativity of ·), and entry (k', i) of what the body stores is
  sample i's total over all samples j of exp (-(∑ d, |g i d - g j d| + the diagonal's penalty)).
-/
import proofs.«133130_j64802466562626_2_alg».proof.Proof.BodyRead
import proofs.«133130_j64802466562626_2_alg».proof.Proof.BodyFeat

noncomputable section

namespace Cert.KernelIdeal.Body

open Idealize.ShloMosaic Idealize.ShloMosaic.ValueIdx Cert.KernelIdeal Cert.KernelIdeal.Gen
open scoped BigOperators

/-- The whole-buffer rectangle's offsets are zeros. -/
theorem offsets_zero : (![0, 0] : Fin 2 → Nat) = fun _ => 0 := funext fun a => by fin_cases a <;> rfl

/-- Entry (k', i) of the [8, 512] block the body stores, from the point's three input blocks — all 512 samples x0, the
    block's 128 rows of the weights x1 and of the bias column x2 —, is sample i's total in the block's group k'. -/
theorem out_apply (x0 : Vec Ideal S512x512 .f32) (x1 : Vec Ideal S128x512 .f32) (x2 : Vec Ideal S128x1 .f32)
    (k' : Fin 8) (i : Fin 512) :
    Cert.KernelIdeal.Gen.out0_3 (F := Ideal) x0 x1 x2 (ix2 k' i)
      = Cert.Pairwise.total (fun n d => (∑ c : Fin 512, x0 (ix2 n c) * x1 (ix2 (Cert.Pairwise.lane k' d) c))
          + x2 (ix2 (Cert.Pairwise.lane k' d) (0 : Fin 1))) i := by
  have hg : ∀ (n : Fin 512) (d : Fin 16), k0_pay2 (F := Ideal) x1 x0 x2 (ix3 k' d n)
      = (∑ c : Fin 512, x0 (ix2 n c) * x1 (ix2 (Cert.Pairwise.lane k' d) c)) + x2 (ix2 (Cert.Pairwise.lane k' d) (0 : Fin 1)) :=
    fun n d => (pay2_apply x1 x0 x2 k' d n).trans
      (congrArg (· + x2 (ix2 (Cert.Pairwise.lane k' d) (0 : Fin 1))) (Finset.sum_congr rfl fun c _ => mul_comm _ _))
  rw [out_eq, View.canon_unit_zero offsets_zero]
  simp only [View.ld_unit_zero (S := S128x512) offsets_zero, View.ld_unit_zero (S := S512x512) offsets_zero,
    View.ld_unit_zero (S := S128x1) offsets_zero]
  rw [whole_apply]
  unfold Cert.Pairwise.total Cert.Pairwise.weight Cert.Pairwise.dist Cert.Pairwise.gap
  refine Finset.sum_congr rfl fun j _ => ?_
  have hij : (if i = j then Cert.Pairwise.big else 0 : EReal) = if i.val = j.val then Cert.Pairwise.big else 0 := by
    by_cases h : i = j
    · rw [if_pos h, if_pos (congrArg Fin.val h)]
    · rw [if_neg h, if_neg (fun e => h (Fin.ext e))]
  rw [hij]
  simp only [pay3_apply, hg, Ideal.absf_def]

end Cert.KernelIdeal.Body

end
-- ==== Proof.KernelArray.lean ====
/-
  The kernel's [64, 512] array after its eight grid points, as one function of the three arrays the launch stages.

  Grid point t takes all 512 samples, rows 128t … 128t + 127 of the weights and of the bias column, and leaves an
  [8, 512] block whose entry (k', i) is sample i's total in the block's group k'. Row r of block t is row 128t + r of the
  weights, entry (k', i) of block t is entry (8t + k', i) of the array, and row 16k' + d of block t is column
  16(8t + k') + d of the projection: so the array's entry (k, i) is sample i's total in group k, the eight blocks of eight
  rows tiling its 64 rows.
-/
import proofs.«133130_j64802466562626_2_alg».proof.Proof.Gen.KernelIdeal.Frame
import proofs.«133130_j64802466562626_2_alg».proof.Proof.Spec
import proofs.«133130_j64802466562626_2_alg».proof.Proof.Body
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The [64, 512] array of totals, the bias given as a [1024, 1] column: entry (k, i) is sample i's total in group k. -/
def totals (X : S512x512.Idx → EReal) (Wt : S1024x512.Idx → EReal) (B1 : S1024x1.Idx → EReal) : S64x512.Idx → EReal :=
  fun p => Cert.Pairwise.total (fun n d =>
      (∑ c : Fin 512, X (ix2 n c) * Wt (ix2 (Cert.Pairwise.col ⟨(p 0).val, (p 0).isLt⟩ d) c))
        + B1 (ix2 (Cert.Pairwise.col ⟨(p 0).val, (p 0).isLt⟩ d) (0 : Fin 1))) ⟨(p 1).val, (p 1).isLt⟩

/-- The same entry named by its two coordinates. -/
theorem totals_at (X : S512x512.Idx → EReal) (Wt : S1024x512.Idx → EReal) (B1 : S1024x1.Idx → EReal) (p : S64x512.Idx)
    (k : Fin 64) (i : Fin 512) (hk : (p 0).val = k.val) (hi : (p 1).val = i.val) :
    totals X Wt B1 p = Cert.Pairwise.total (fun n d =>
      (∑ c : Fin 512, X (ix2 n c) * Wt (ix2 (Cert.Pairwise.col k d) c)) + B1 (ix2 (Cert.Pairwise.col k d) (0 : Fin 1))) i := by
  have ek : (⟨(p 0).val, (p 0).isLt⟩ : Fin 64) = k := Fin.ext hk
  have ei : (⟨(p 1).val, (p 1).isLt⟩ : Fin 512) = i := Fin.ext hi
  unfold totals
  rw [ek, ei]

/-- One grid point's block is the array's block: if the point's three input blocks are all of X, rows 128t … of Wt and
    rows 128t … of B1, then entry y of what the body leaves is the array's entry (8t + y₀, y₁). -/
theorem point_entry (X : S512x512.Idx → EReal) (Wt : S1024x512.Idx → EReal) (B1 : S1024x1.Idx → EReal)
    (x0 : Vec Ideal S512x512 .f32) (x1 : Vec Ideal S128x512 .f32) (x2 : Vec Ideal S128x1 .f32) (tv : Nat)
    (h0 : ∀ n c : Fin 512, x0 (ix2 n c) = X (ix2 n c))
    (h1 : ∀ (r : Fin 128) (c : Fin 512) (q : Fin 1024), q.val = tv * 128 + r.val → x1 (ix2 r c) = Wt (ix2 q c))
    (h2 : ∀ (r : Fin 128) (q : Fin 1024), q.val = tv * 128 + r.val → x2 (ix2 r (0 : Fin 1)) = B1 (ix2 q (0 : Fin 1)))
    (y : S8x512.Idx) (p : S64x512.Idx) (hp0 : (p 0).val = tv * 8 + (y 0).val) (hp1 : (p 1).val = (y 1).val) :
    out0_3 (F := Ideal) x0 x1 x2 y = totals X Wt B1 p := by
  obtain ⟨k', i, rfl⟩ : ∃ (k' : Fin 8) (i : Fin 512), y = ix2 k' i := ⟨y 0, y 1, eq_ix2 y⟩
  have hk' : k'.val < 8 := k'.isLt
  have hp0' : (p 0).val = tv * 8 + k'.val := hp0
  have hlt : (p 0).val < 64 := (p 0).isLt
  rw [Cert.KernelIdeal.Body.out_apply,
    totals_at X Wt B1 p ⟨tv * 8 + k'.val, by omega⟩ i hp0' hp1]
  refine congrArg (fun g => Cert.Pairwise.total g i) ?_
  funext n d
  have hq : (Cert.Pairwise.col ⟨tv * 8 + k'.val, by omega⟩ d).val = tv * 128 + (Cert.Pairwise.lane k' d).val := by
    show (tv * 8 + k'.val) * 16 + d.val = tv * 128 + (k'.val * 16 + d.val)
    omega
  rw [h2 _ _ hq]
  refine congrArg (· + _) ?_
  refine Finset.sum_congr rfl fun c _ => ?_
  rw [h0, h1 _ _ _ hq]

variable (m : (ℓ : Loc nD τ sig) → Buf (Elt Ideal) ℓ) (ρ : Dev nD → PrngReg)

/-- The printed index maps over the eight points: the samples' window stays at block (0, 0); the weights', the bias
    column's and the output's windows are at block (t, 0). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The samples' block at any point is the whole array. -/
theorem samples_blk (c : Dev nD) (t : Fin cfg0.N) (n k : Fin 512) :
    (iblk m c 0 t : Vec Ideal S512x512 .f32) (ix2 n k) = (V m c main_arg0 : S512x512.Idx → EReal) (ix2 n k) := by
  obtain ⟨e0, e1, -⟩ := idx_facts t
  show V m c main_arg0 (((cfg0.win 0).blk t).view.emb (ix2 n k)) = V m c main_arg0 (ix2 n k)
  refine congrArg (V m c main_arg0) ?_
  funext a; apply Fin.ext
  match a with
  | ⟨0, _⟩ => show win0_0.index t (0 : Fin 2) * 512 + 1 * n.val = n.val; rw [e0]; omega
  | ⟨1, _⟩ => show win0_0.index t (1 : Fin 2) * 512 + 1 * k.val = k.val; rw [e1]; omega

/-- Row r of the weights' block at point t is row 128t + r of the weights. -/
theorem weights_blk (c : Dev nD) (t : Fin cfg0.N) (r : Fin 128) (k : Fin 512) (q : Fin 1024) (hq : q.val = t.val * 128 + r.val) :
    (iblk m c 1 t : Vec Ideal S128x512 .f32) (ix2 r k) = (V m c main_arg1 : S1024x512.Idx → EReal) (ix2 q k) := by
  obtain ⟨-, -, e0, e1, -⟩ := idx_facts t
  show V m c main_arg1 (((cfg0.win 1).blk t).view.emb (ix2 r k)) = V m c main_arg1 (ix2 q k)
  refine congrArg (V m c main_arg1) ?_
  funext a; apply Fin.ext
  match a with
  | ⟨0, _⟩ => show win0_1.index t (0 : Fin 2) * 128 + 1 * r.val = q.val; rw [e0, hq]; omega
  | ⟨1, _⟩ => show win0_1.index t (1 : Fin 2) * 512 + 1 * k.val = k.val; rw [e1]; omega

/-- Row r of the bias column's block at point t is row 128t + r of the column. -/
theorem bias_blk (c : Dev nD) (t : Fin cfg0.N) (r : Fin 128) (q : Fin 1024) (hq : q.val = t.val * 128 + r.val) :
    (iblk m c 2 t : Vec Ideal S128x1 .f32) (ix2 r (0 : Fin 1)) = (V m c main_v0 : S1024x1.Idx → EReal) (ix2 q (0 : Fin 1)) := by
  obtain ⟨-, -, -, -, e0, e1, -⟩ := idx_facts t
  show V m c main_v0 (((cfg0.win 2).blk t).view.emb (ix2 r (0 : Fin 1))) = V m c main_v0 (ix2 q (0 : Fin 1))
  refine congrArg (V m c main_v0) ?_
  funext a; apply Fin.ext
  match a with
  | ⟨0, _⟩ => show win0_2.index t (0 : Fin 2) * 128 + 1 * r.val = q.val; rw [e0, hq]; omega
  | ⟨1, _⟩ => show win0_2.index t (1 : Fin 2) * 1 + 1 * 0 = 0; rw [e1]

/-- What point t writes back is block t of the array of totals of the staged arrays. -/
theorem flushed_eq (c : Dev nD) (t : Fin cfg0.N) :
    (dats m 0 c).flushed 3 t
      = ((cfg0.win 3).blk t).view.read (Elt Ideal) (totals (V m c main_arg0) (V m c main_arg1) (V m c main_v0)) := by
  show (cfg0.win 3).cut (grid0.coords t) ((dats m 0 c).after 3 t) = _
  rw [after0_3]
  obtain ⟨-, -, -, -, -, -, e0, e1⟩ := idx_facts t
  funext y
  show out0_3 (iblk m c 0 t) (iblk m c 1 t) (iblk m c 2 t) y
    = totals (V m c main_arg0) (V m c main_arg1) (V m c main_v0) (((cfg0.win 3).blk t).view.emb y)
  refine point_entry (V m c main_arg0) (V m c main_arg1) (V m c main_v0) (iblk m c 0 t) (iblk m c 1 t) (iblk m c 2 t) t.val
    (samples_blk m c t) (weights_blk m c t) (bias_blk m c t) y (((cfg0.win 3).blk t).view.emb y) ?_ ?_
  · show win0_3.index t (0 : Fin 2) * 8 + 1 * (y 0).val = t.val * 8 + (y 0).val; rw [e0]; omega
  · show win0_3.index t (1 : Fin 2) * 512 + 1 * (y 1).val = (y 1).val; rw [e1]; omega

/-- An index of the array is in point t's block iff each coordinate is in the block's range on its axis. -/
theorem mem_blk (t : Fin cfg0.N) (i : S64x512.Idx) :
    i ∈ ((cfg0.win 3).blk t).view.set
      ↔ ∀ a : Fin 2, win0_3.index t a * S8x512.size a ≤ (i a).val ∧ (i a).val < win0_3.index t a * S8x512.size a + S8x512.size a := by
  show i ∈ ((View.whole main_v1).slice (win0_3.rect t)).set ↔ _
  rw [View.set_slice_whole, Rect.mem_set_unit]
  exact Iff.rfl

/-- The eight blocks of eight rows tile the 64 rows: row r is in the block of point r / 8. -/
theorem covered (i : S64x512.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hN : cfg0.N = 8 := N_0
  let t : Fin cfg0.N := ⟨(i 0).val / 8, by rw [hN]; omega⟩
  have ht : t.val = (i 0).val / 8 := rfl
  obtain ⟨-, -, -, -, -, -, e0, e1⟩ := idx_facts t
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    rw [e0, ht]; omega
  | ⟨1, _⟩ =>
    show win0_3.index t (1 : Fin 2) * 512 ≤ (i 1).val ∧ (i 1).val < win0_3.index t (1 : Fin 2) * 512 + 512
    rw [e1]; omega

/-- The array after the eight points: the totals of the staged arrays. -/
theorem final (c : Dev nD) :
    (dats m 0 c).arrAt 3 cfg0.N = totals (V m c main_arg0) (V m c main_arg1) (V m c main_v0) :=
  (dats m 0 c).arrAt_eq_of_cover 3 (totals (V m c main_arg0) (V m c main_arg1) (V m c main_v0))
    (fun t _ => flushed_eq m c t) covered

/-- The bias column the launch stages is the bias vector reshaped. -/
theorem V_bias (c : Dev nD) :
    (V m c main_v0 : S1024x1.Idx → EReal)
      = shapeCast S1024x1 (m ((c : Thread nD τ).loc main_arg2)) shapeCasts_S1024_S1024x1 := by
  show StableHlo.after hostOps0 (fun b => m (c, b)) (Proc.devRef .tc main_v0) = _
  after_results
  rfl

/-- The bias column at row q is the bias at q. -/
theorem column_apply (b : S1024.Idx → EReal) (q : Fin 1024) :
    shapeCast S1024x1 b shapeCasts_S1024_S1024x1 (ix2 q (0 : Fin 1)) = b (ix1 q) := by
  refine shapeCast_apply b _ _ _ ?_
  rw [Shape.rowMajor_val_one, Shape.rowMajor_val_two]
  show q.val = q.val * 1 + 0
  omega

/-- With the bias as a reshaped vector, the totals are the specification's, transposed: entry (k, i) is entry (i, k)
    of the [512, 64] array of totals. -/
theorem totals_column (x : S512x512.Idx → EReal) (W : S1024x512.Idx → EReal) (b : S1024.Idx → EReal) (k : Fin 64) (i : Fin 512) :
    totals x W (shapeCast S1024x1 b shapeCasts_S1024_S1024x1) (ix2 k i) = Cert.Pairwise.ob x W b (ix2 i k) := by
  rw [totals_at x W _ (ix2 k i) k i rfl rfl, Cert.Pairwise.ob_apply]
  refine congrArg (fun g => Cert.Pairwise.total g i) ?_
  funext n d
  unfold Cert.Pairwise.feat
  rw [column_apply]

/-- The array after the eight points, from the launch's arguments. -/
theorem final_args (c : Dev nD) :
    (dats m 0 c).arrAt 3 cfg0.N
      = totals (m ((c : Thread nD τ).loc main_arg0)) (m ((c : Thread nD τ).loc main_arg1))
          (shapeCast S1024x1 (m ((c : Thread nD τ).loc main_arg2)) shapeCasts_S1024_S1024x1) := by
  rw [final, V_bias, V_main_arg0, V_main_arg1]

end Cert.KernelIdeal.Whole

end
-- ==== Proof.KernelTail.lean ====
/-
  The program's result from the kernel's array: after the eight grid points the host transposes the [64, 512] array of
  totals to [512, 64] and puts it to the right of the samples. The transposed array is the specification's array of
  totals, so the result is the samples followed by it.
-/
import proofs.«133130_j64802466562626_2_alg».proof.Proof.KernelArray
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The array of totals transposed, the bias read through its column, is the specification's [512, 64] array. -/
theorem transposed_totals (x : S512x512.Idx → EReal) (W : S1024x512.Idx → EReal) (b : S1024.Idx → EReal) :
    transpose S512x64 [1, 0] (totals x W (shapeCast S1024x1 b shapeCasts_S1024_S1024x1)) transposes_S64x512_S512x64_1_0
      = Cert.Pairwise.ob x W b := by
  funext p
  obtain ⟨i, k, rfl⟩ : ∃ (i : Fin 512) (k : Fin 64), p = ix2 i k := ⟨p 0, p 1, eq_ix2 p⟩
  rw [transpose_ix2_apply, totals_column]

variable (m : (ℓ : Loc nD τ sig) → Buf (Elt Ideal) ℓ) (ρ : Dev nD → PrngReg)

/-- The host's two operations after the eight points, from the launch's arguments: the samples followed by the
    specification's array of totals. -/
theorem tail_result (c : Dev nD) :
    Pipeline.afterTail₀ cfgs (dats m) 0 (V0 m) [hostOps1] c main_v3
      = concatenate S512x576 1 [⟨S512x512, m ((c.tc : Thread nD τ).loc main_arg0)⟩,
          ⟨S512x64, Cert.Pairwise.ob (m ((c.tc : Thread nD τ).loc main_arg0)) (m ((c.tc : Thread nD τ).loc main_arg1)) (m ((c.tc : Thread nD τ).loc main_arg2))⟩]
          concatenates_S512x512_S512x64_S512x576_d1 := by
  have e0 : Pipeline.withArrays (cfgs 0).spec c (V0 m c) (fun w => (dats m 0 c).arrAt w (cfgs 0).N) (Proc.devRef .tc main_arg0)
      = m ((c.tc : Thread nD τ).loc main_arg0) :=
    (Pipeline.withArrays_arr spec0 launch0.win.arr_inj c _ _ 0).trans
      (((dats m 0 c).arrAt_in 0 rfl _).trans ((A_eq m c 0).trans (V_main_arg0 m c)))
  have e3 : Pipeline.withArrays (cfgs 0).spec c (V0 m c) (fun w => (dats m 0 c).arrAt w (cfgs 0).N) (Proc.devRef .tc main_v1)
      = totals (m ((c : Thread nD τ).loc main_arg0)) (m ((c : Thread nD τ).loc main_arg1))
          (shapeCast S1024x1 (m ((c : Thread nD τ).loc main_arg2)) shapeCasts_S1024_S1024x1) :=
    (Pipeline.withArrays_arr spec0 launch0.win.arr_inj c _ _ 3).trans (final_args m c)
  unfold Pipeline.afterTail₀
  show StableHlo.after hostOps1 _ (Proc.devRef .tc main_v3) = _
  after_results
  rw [e0, e3, transposed_totals]

/-- Every weakly fair execution of the program ends with its result at the samples followed by the specification's
    array of totals, and with its three arguments as launched. -/
theorem run : θ_run (defs (F := Ideal)) (onTc (τ := τ) (main (F := Ideal))) ⟨m, fun _ => 0, ρ⟩ (fun r => ∀ c : Dev nD,
      r.2.mem ((c.tc : Thread nD τ).loc main_v3)
          = concatenate S512x576 1 [⟨S512x512, m ((c.tc : Thread nD τ).loc main_arg0)⟩,
              ⟨S512x64, Cert.Pairwise.ob (m ((c.tc : Thread nD τ).loc main_arg0)) (m ((c.tc : Thread nD τ).loc main_arg1)) (m ((c.tc : Thread nD τ).loc main_arg2))⟩]
              concatenates_S512x512_S512x64_S512x576_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v3 (Pipeline.mem_restRefs_of main_v3 (by decide) (by decide))).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Whole

end
-- ==== Proof.LibSelectorSum.lean ====
/-
  A sum against a one-hot selector, and the identity matrix's entry as a host program builds it.

  Multiplying a row by a block-diagonal (or any one-hot weighted) matrix leaves a sum in which every term but one is a
  product with zero. On the extended reals `0 · a = 0`, `a · 0 = 0` and `1 · a = a` hold for every `a`, the infinities
  included, so the sum collapses to its one term with no finiteness hypothesis.

  `jnp.eye` prints as: the row number (plus a zero offset) compared for equality with the column number, both as 32-bit
  words, and the one-bit answer converted to a float. For numbers below 2³² the words are equal exactly when the numbers
  are, so at the ideal values the entry is one on the diagonal and zero off it.
-/
import Idealize.ShloMosaic.Lib.ValueIdx
import Idealize.ShloMosaic.Lib.Affine
import Idealize.ShloMosaic.PureOps.Ideal.Laws

noncomputable section

namespace Cert.Lib.SelectorSum

open Idealize.ShloMosaic Idealize.ShloMosaic.ValueIdx
open scoped BigOperators

/-- A sum against a selector: if `e` is one at `f` and zero elsewhere, `∑ c, xr c · (e c · w) = xr f · w` on the
    extended reals, whatever the values (finite or not) of `xr` and `w`. -/
theorem sum_select {n : ℕ} (f : Fin n) (xr e : Fin n → EReal) (w : EReal)
    (h1 : e f = 1) (h0 : ∀ c, c ≠ f → e c = 0) :
    ∑ c, xr c * (e c * w) = xr f * w := by
  rw [Finset.sum_eq_single f]
  · rw [h1, one_mul]
  · intro c _ hc
    rw [h0 c hc, zero_mul, mul_zero]
  · intro h
    exact absurd (Finset.mem_univ f) h

/-- The identity matrix's entry (k, f) as the host builds it — `uitofp (cmpi eq (k + 0) f)` on 32-bit words — is, at the
    ideal values, one when `k = f` and zero otherwise, for any extent that fits a 32-bit word. -/
theorem eye_entry {n : ℕ} (hn : n ≤ 2 ^ 32) (k f : Fin n) :
    (FloatOps.uitofp (F := Ideal) .f32
      (IntOp.cmpi .eq (IntOp.addi (BitVec.ofNat 32 k.val) 0#32) (BitVec.ofNat 32 f.val)) : EReal)
      = if k = f then 1 else 0 := by
  have hadd : IntOp.addi (BitVec.ofNat 32 k.val) 0#32 = BitVec.ofNat 32 k.val := by
    unfold IntOp.addi; exact BitVec.add_zero _
  rw [hadd]
  by_cases h : k = f
  · subst h
    rw [if_pos rfl, IntOp.cmpi_eq.mpr rfl]
    show (((1#1 : BitVec 1).toNat : ℝ) : EReal) = 1
    norm_num
  · rw [if_neg h]
    have hne : ¬ IntOp.cmpi .eq (BitVec.ofNat 32 k.val) (BitVec.ofNat 32 f.val) = 1#1 := fun e => h (Fin.ext (by
      have e2 := congrArg BitVec.toNat (IntOp.cmpi_eq.mp e)
      simp only [BitVec.toNat_ofNat] at e2
      have hk := k.isLt
      have hf := f.isLt
      omega))
    rw [eq_zero_of_ne_one hne]
    show (((0#1 : BitVec 1).toNat : ℝ) : EReal) = 0
    norm_num

end Cert.Lib.SelectorSum

end
-- ==== Proof.RefValue.lean ====
/-
  The reference computation, read entry by entry, is the layer's specification.

  The reference projects the batch (a contraction over the 512 input features against the transposed weights, plus the
  bias repeated along the rows), regroups the 1024 projected columns as 64 groups of 16 (column 16k + d is number d of
  group k: the row-major position (n·64 + k)·16 + d splits as n·1024 + (16k + d)), forms for every pair of samples
  (i, j) and every group the sixteen absolute differences |u - v| = max (u - v) (-(u - v)) and adds them up from zero,
  adds the diagonal's penalty — the indicator of i = j, built by comparing the row number with the column number, times
  the literal 10⁶ —, negates, exponentiates, and sums over j from zero. Each stage is followed at one index; the only
  laws used are 0 + a = a, 1 · a = a and 0 · a = 0 on the extended reals, which hold for every a, so nothing here asks
  the inputs to be finite.
-/
import proofs.«133130_j64802466562626_2_alg».proof.Proof.Gen.ReferenceIdeal.Read
import proofs.«133130_j64802466562626_2_alg».proof.Proof.Spec
import proofs.«133130_j64802466562626_2_alg».proof.Proof.LibSelectorSum

noncomputable section

namespace Cert.ReferenceIdeal.RefValue

open Cert.ReferenceIdeal Cert.ReferenceIdeal.Read Idealize.ShloMosaic Idealize.ShloMosaic.ValueIdx Cert.Pairwise
open scoped BigOperators

/-- The projection plus the bias, at sample n and column q: the contraction reads x along row n and the transposed
    weights along column q, which is row q of W; the bias is repeated down the rows. -/
theorem feat_at
    (x0 : (⟨S512x512, .f32⟩ : BufTy).Contents (Elt Ideal))
    (x1 : (⟨S1024x512, .f32⟩ : BufTy).Contents (Elt Ideal))
    (x2 : (⟨S1024, .f32⟩ : BufTy).Contents (Elt Ideal)) (n : Fin 512) (q : Fin 1024) :
    val_main_v4 (F := Ideal) x0 x1 x2 (ix2 n q) = feat x0 x1 x2 n q := by
  have eL : ∀ c : Fin 512, lidx_main_v1 (ix2 n q) c = ix2 n c := fun c =>
    funext fun a => Fin.ext (by match a with | ⟨0, _⟩ => rfl | ⟨1, _⟩ => rfl)
  have eR : ∀ c : Fin 512, idx_main_v0 (ridx_main_v1 (ix2 n q) c) = ix2 q c := fun c =>
    funext fun a => Fin.ext (by match a with | ⟨0, _⟩ => rfl | ⟨1, _⟩ => rfl)
  have eB : idx_main_v2 (idx_main_v3 (ix2 n q)) = ix1 q :=
    funext fun a => Fin.ext (by match a with | ⟨0, _⟩ => rfl)
  rw [val_main_v4_apply, val_main_v1_apply, val_main_v3_apply, val_main_v2_apply, eB]
  simp only [val_main_v0_apply, eL, eR, Ideal.addf_def]
  rfl

/-- The regrouping [512, 1024] → [512, 64, 16]: entry (n, k, d) is the projection's column 16k + d of sample n, because
    the row-major position (n·64 + k)·16 + d is n·1024 + (16k + d) with 16k + d below 1024. -/
theorem grouped_at
    (x0 : (⟨S512x512, .f32⟩ : BufTy).Contents (Elt Ideal))
    (x1 : (⟨S1024x512, .f32⟩ : BufTy).Contents (Elt Ideal))
    (x2 : (⟨S1024, .f32⟩ : BufTy).Contents (Elt Ideal)) (n : Fin 512) (k : Fin 64) (d : Fin 16) :
    val_main_v5 (F := Ideal) x0 x1 x2 (ix3 n k d) = feat x0 x1 x2 n (col k d) := by
  have e : idx_main_v5 (ix3 n k d) = ix2 n (col k d) :=
    funext fun a => Fin.ext (by
      have hn := n.isLt; have hk := k.isLt; have hd := d.isLt
      match a with
      | ⟨0, _⟩ => show ((n.val * 64 + k.val) * 16 + d.val) / 1024 = n.val; omega
      | ⟨1, _⟩ => show ((n.val * 64 + k.val) * 16 + d.val) % 1024 = k.val * 16 + d.val; omega)
  rw [val_main_v5_apply, e, feat_at]

/-- One absolute difference: at (i, k, d, j) the first operand repeats sample i's number along the last axis, the
    second (transposed to put the samples last) repeats sample j's number along the first. -/
theorem gap_at
    (x0 : (⟨S512x512, .f32⟩ : BufTy).Contents (Elt Ideal))
    (x1 : (⟨S1024x512, .f32⟩ : BufTy).Contents (Elt Ideal))
    (x2 : (⟨S1024, .f32⟩ : BufTy).Contents (Elt Ideal)) (i : Fin 512) (k : Fin 64) (d : Fin 16) (j : Fin 512) :
    val_main_v12 (F := Ideal) x0 x1 x2 (ix4 i k d j)
      = gap (feat x0 x1 x2 i (col k d)) (feat x0 x1 x2 j (col k d)) := by
  have e9 : idx_main_v6 (idx_main_v9 (ix4 i k d j)) = ix3 i k d :=
    funext fun a => Fin.ext (by match a with | ⟨0, _⟩ => rfl | ⟨1, _⟩ => rfl | ⟨2, _⟩ => rfl)
  have e10 : idx_main_v7 (idx_main_v8 (idx_main_v10 (ix4 i k d j))) = ix3 j k d :=
    funext fun a => Fin.ext (by match a with | ⟨0, _⟩ => rfl | ⟨1, _⟩ => rfl | ⟨2, _⟩ => rfl)
  rw [val_main_v12_apply, val_main_v11_apply, val_main_v9_apply, val_main_v6_apply, e9,
    val_main_v10_apply, val_main_v8_apply, val_main_v7_apply, e10, grouped_at, grouped_at]
  simp only [Ideal.hostAbsf_def, Ideal.absf_def, Ideal.subf_def]
  rfl

/-- The distance of samples i and j in group k: the sixteen absolute differences added to the initial zero. -/
theorem dist_at
    (x0 : (⟨S512x512, .f32⟩ : BufTy).Contents (Elt Ideal))
    (x1 : (⟨S1024x512, .f32⟩ : BufTy).Contents (Elt Ideal))
    (x2 : (⟨S1024, .f32⟩ : BufTy).Contents (Elt Ideal)) (i : Fin 512) (k : Fin 64) (j : Fin 512) :
    val_main_v13 (F := Ideal) x0 x1 x2 (ix3 i k j)
      = dist (fun n d => feat x0 x1 x2 n (col k d)) i j := by
  have e : ∀ d : Fin 16, idx_main_v13 (ix3 i k j) d = ix4 i k d j := fun d =>
    funext fun a => Fin.ext (by match a with | ⟨0, _⟩ => rfl | ⟨1, _⟩ => rfl | ⟨2, _⟩ => rfl | ⟨3, _⟩ => rfl)
  rw [val_main_v13_apply, val_main_cst_apply]
  simp only [e, gap_at, Ideal.ofBits_def, Ideal.ofBits_zero_f32, zero_add]
  rfl

/-- The diagonal's penalty at (i, k, j), the same for every group k: the indicator of i = j (row number against column
    number, as 32-bit words, below 2³²) times the literal; 1 · a = a and 0 · a = 0 for every extended real a. -/
theorem penalty_at (i : Fin 512) (k : Fin 64) (j : Fin 512) :
    val_main_v23 (F := Ideal) (ix3 i k j) = if i = j then big else 0 := by
  have e : idx_main_v20 (idx_main_v23 (ix3 i k j)) = ix2 i j :=
    funext fun a => Fin.ext (by match a with | ⟨0, _⟩ => rfl | ⟨1, _⟩ => rfl)
  rw [val_main_v23_apply, val_main_v22_apply, val_main_v20_apply, e, val_main_v19_apply,
    val_main_v18_apply, val_main_v17_apply, val_main_v14_apply, val_main_v15_apply,
    val_main_v16_apply, val_main_c_apply, val_main_v21_apply, val_main_cst_0_apply]
  show FloatOps.mulf (FloatOps.uitofp (F := Ideal) .f32
      (IntOp.cmpi .eq (IntOp.addi (BitVec.ofNat 32 i.val) 0#32) (BitVec.ofNat 32 j.val))) _ = _
  rw [Cert.Lib.SelectorSum.eye_entry (by norm_num) i j]
  simp only [Ideal.mulf_def, Ideal.ofBits_def]
  unfold big
  split_ifs
  · exact one_mul _
  · exact zero_mul _

/-- The weight of the pair (i, j) in group k: exp of minus (the distance plus the penalty). -/
theorem weight_at
    (x0 : (⟨S512x512, .f32⟩ : BufTy).Contents (Elt Ideal))
    (x1 : (⟨S1024x512, .f32⟩ : BufTy).Contents (Elt Ideal))
    (x2 : (⟨S1024, .f32⟩ : BufTy).Contents (Elt Ideal)) (i : Fin 512) (k : Fin 64) (j : Fin 512) :
    val_main_v26 (F := Ideal) x0 x1 x2 (ix3 i k j)
      = weight (fun n d => feat x0 x1 x2 n (col k d)) i j := by
  rw [val_main_v26_apply, val_main_v25_apply, val_main_v24_apply, dist_at, penalty_at]
  simp only [Ideal.hostUnary_exp_def, Ideal.hostNegf_def, Ideal.negf_def, Ideal.addf_def]
  rfl

/-- The [512, 64] array the reference joins to x is the array of totals: entry (i, k) is the sum over j, from zero, of
    the weights of the pairs (i, j) in group k. -/
theorem ref_ob
    (x0 : (⟨S512x512, .f32⟩ : BufTy).Contents (Elt Ideal))
    (x1 : (⟨S1024x512, .f32⟩ : BufTy).Contents (Elt Ideal))
    (x2 : (⟨S1024, .f32⟩ : BufTy).Contents (Elt Ideal)) :
    val_main_v27 (F := Ideal) x0 x1 x2 = ob x0 x1 x2 := by
  funext p
  obtain ⟨i, k, rfl⟩ : ∃ (i : Fin 512) (k : Fin 64), p = ix2 i k := ⟨p 0, p 1, eq_ix2 p⟩
  have e : ∀ j : Fin 512, idx_main_v27 (ix2 i k) j = ix3 i k j := fun j =>
    funext fun a => Fin.ext (by match a with | ⟨0, _⟩ => rfl | ⟨1, _⟩ => rfl | ⟨2, _⟩ => rfl)
  rw [val_main_v27_apply, val_main_cst_1_apply, ob_apply]
  simp only [e, weight_at, Ideal.ofBits_def, Ideal.ofBits_zero_f32, zero_add]
  rfl

end Cert.ReferenceIdeal.RefValue

end
-- ==== Proof.lean ====
/-
  The layer's two programs compute one function on the extended reals. Both return the 512 samples x followed by a
  [512, 64] array whose entry (i, k) is  ∑ j, exp (-(∑ d, |f i (16k + d) - f j (16k + d)| + e i j)),  where
  f n q = (∑ c, x(n, c) · W(q, c)) + b(q)  and e is the literal 10⁶ on the diagonal i = j and 0 elsewhere
  (Proof/Spec.lean). The kernel reaches it through eight grid points, each leaving eight rows of the transposed array
  (Proof/Body.lean, Proof/KernelArray.lean, Proof/KernelTail.lean); the reference through whole-array host operations
  (Proof/RefValue.lean). Only the order of sums and of products differs, so no input needs to be finite; the frames are
  the generated ones, and the idealized kernel is the kernel's own text read on the extended reals.
-/
import proofs.«133130_j64802466562626_2_alg».proof.Defs
import proofs.«133130_j64802466562626_2_alg».proof.Proof.Gen.Kernel
import proofs.«133130_j64802466562626_2_alg».proof.Proof.Gen.Kernel.Skeleton
import proofs.«133130_j64802466562626_2_alg».proof.Proof.Gen.Kernel.Launch
import proofs.«133130_j64802466562626_2_alg».proof.Proof.Gen.Kernel.Points
import proofs.«133130_j64802466562626_2_alg».proof.Proof.Gen.Kernel.Frame
import proofs.«133130_j64802466562626_2_alg».proof.Proof.Gen.KernelIdeal
import proofs.«133130_j64802466562626_2_alg».proof.Proof.Gen.KernelIdeal.Skeleton
import proofs.«133130_j64802466562626_2_alg».proof.Proof.Gen.KernelIdeal.Launch
import proofs.«133130_j64802466562626_2_alg».proof.Proof.Gen.KernelIdeal.Points
import proofs.«133130_j64802466562626_2_alg».proof.Proof.Gen.KernelIdeal.Frame
import proofs.«133130_j64802466562626_2_alg».proof.Proof.Gen.ReferenceIdeal
import proofs.«133130_j64802466562626_2_alg».proof.Proof.Gen.Pre_finite_inputs
import proofs.«133130_j64802466562626_2_alg».proof.Proof.Gen.ReferenceIdeal.Run
import proofs.«133130_j64802466562626_2_alg».proof.Proof.Gen.ReferenceIdeal.Read
import proofs.«133130_j64802466562626_2_alg».proof.Proof.KernelTail
import proofs.«133130_j64802466562626_2_alg».proof.Proof.RefValue
import Idealize.ShloMosaic.Adequacy
import Idealize.ShloMosaic.Init

noncomputable section

namespace Cert.Proof

open Idealize.ShloMosaic Idealize.SL.Sem Cert.Kernel

/-- From memories that agree on x, W and b, the idealized kernel and the idealized reference both end with the samples
    followed by the specification's array of totals: the kernel by its run read through the grid, the reference by its
    run read operation by operation. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  unfold Cert.ReferenceIdeal.Read.val_main_v28
  rw [Cert.ReferenceIdeal.RefValue.ref_ob, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
